-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S128 .f32) (main_arg7 : FVec F S256x256 .f32) (main_arg8 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S256x256 .f32) (main_arg8 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S1x128 : Shape := ⟨2, ![1, 128]⟩
abbrev S2000x128 : Shape := ⟨2, ![2000, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x256 : Shape := ⟨2, ![128, 256]⟩
abbrev S1x256 : Shape := ⟨2, ![1, 256]⟩
abbrev S50000x256 : Shape := ⟨2, ![50000, 256]⟩
abbrev S2000x256 : Shape := ⟨2, ![2000, 256]⟩

abbrev nBuf : Space → Nat
  | .hbm => 75
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S1x128, .f32⟩
  | .hbm, ⟨10, _⟩ => ⟨S50000x128, .f32⟩
  | .hbm, ⟨11, _⟩ => ⟨S50000x128, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S128x256, .f32⟩
  | .hbm, ⟨72, _⟩ => ⟨S128x256, .f32⟩
  | .hbm, ⟨73, _⟩ => ⟨S1x256, .f32⟩
  | .hbm, ⟨74, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x256, .f32⟩
  | .local _ .vmem, ⟨14, _⟩ => ⟨S128x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S256x256_S128x256_0_0 : S256x256.Slices ![0, 0] S128x256
  slices_S256x256_S128x256_128_0 : S256x256.Slices ![128, 0] S128x256
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S50000x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S50000x128, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x256_S256x256_S50000x256_1_0_0_1_n_n_wf : DotDims.WF S50000x256 S256x256 S50000x256 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel program's run, with its result named. The program is a reshape of the first bias, the first tiled
  pipeline (two dense products per row tile), the graph-convolution chain on the host, three layout operations on the last
  weight and bias, and the second tiled pipeline. Every weakly fair execution terminates without a fault; at the end the
  result buffer holds what the second pipeline's write-backs leave in its array, read through the chain of buffer
  contents at the segment boundaries, and the nine argument arrays are as launched.
-/
import proofs.«147124_j61907658604753_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents (the second pipeline's exit), and every argument
    array ends as it was launched. -/
theorem run_named : θ_run defs (onTc (τ := τ) (main (F := F))) ⟨m, fun _ => 0, ρ⟩ (fun r => ∀ c : Dev nD,
      r.2.mem ((c.tc : Thread nD τ).loc main_v51) = V6 m ρ c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«147124_j61907658604753_1_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.LibGcnLaws.lean ====
/-
  The two layer laws of a graph convolution written over whole arrays, and the same layers as a kernel tile spells them,
  each read at an index on the extended reals.

  A dense layer over a bias ROW: entry (r, j) is the sum over k of x(r, k) · w(k, j), plus b(0, j). The host spells it as a
  matrix product plus the bias row spread down the rows; a tile spells it as a product of narrowed operands (narrowing is the
  identity on the extended reals) into a zero accumulator plus the row spread down the tile's rows. A tile that holds rows
  off, off+1, … of x therefore holds exactly those rows of the whole layer: nothing but the row index moves, and no sum is
  regrouped.

  An edge scaling over a weight COLUMN: entry (e, j) is g(e, j) · col(e, 0), on the host by spreading the column across the
  lanes and in a tile by spreading the tile's slice of the column.

  A vector recast as a row, or as a column, is the vector spread into that shape: both read entry j.
  Nothing here depends on a program.
-/
import proofs.«147124_j61907658604753_1_alg».proof.Proof.LibPlainDot
import proofs.«147124_j61907658604753_1_alg».proof.Proof.LibPlainDotGeneral
import proofs.«147124_j61907658604753_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace GcnLaws

open Idealize.ShloMosaic Idealize.ShloMosaic.ValueIdx

variable {M K N E T : Nat}

/-! ## The dense layer -/

/-- The host's dense layer over a bias row: the matrix product plus the row spread down the rows. -/
def dense (D : DotDims ⟨2, ![M, K]⟩ ⟨2, ![K, N]⟩ ⟨2, ![M, N]⟩)
    (hb : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨2, ![1, N]⟩ .f32) :
    FVec Ideal ⟨2, ![M, N]⟩ .f32 :=
  addf (Host.dotGeneral (F := Ideal) D none x w) (broadcastInDim ⟨2, ![M, N]⟩ (![0, 1] : Fin 2 → Fin 2) hb b)

/-- A row spread down the rows by the host reads, at (r, j), the row's entry j. -/
theorem rowDown_apply {α : Type} (hb : (⟨2, ![1, N]⟩ : Shape).BroadcastsInDim ⟨2, ![M, N]⟩ (![0, 1] : Fin 2 → Fin 2))
    (b : (⟨2, ![1, N]⟩ : Shape).Idx → α) (r : Fin M) (j : Fin N) :
    broadcastInDim ⟨2, ![M, N]⟩ (![0, 1] : Fin 2 → Fin 2) hb b (ix2 r j) = b (ix2 (0 : Fin 1) j) := by
  refine broadcastInDim_apply _ hb b (ix2 r j) (ix2 (0 : Fin 1) j) fun a => ?_
  match a with
  | ⟨0, _⟩ => rfl
  | ⟨1, _⟩ =>
    show j.val = if N = 1 then 0 else j.val
    split
    · have := j.isLt; omega
    · rfl

/-- The host's dense layer at (r, j). -/
theorem dense_apply (D : DotDims ⟨2, ![M, K]⟩ ⟨2, ![K, N]⟩ ⟨2, ![M, N]⟩) (hD : PlainDot.IsPlain D)
    (hb : (⟨2, ![1, N]⟩ : Shape).BroadcastsInDim ⟨2, ![M, N]⟩ (![0, 1] : Fin 2 → Fin 2))
    (x : FVec Ideal ⟨2, ![M, K]⟩ .f32) (w : FVec Ideal ⟨2, ![K, N]⟩ .f32) (b : FVec Ideal ⟨2, ![1, N]⟩ .f32)
    (r : Fin M) (j : Fin N) :
    dense D hb x w b (ix2 r j) = (∑ k : Fin K, x (ix2 r k) * w (ix2 k j)) + b (ix2 (0 : Fin 1) j) := by
  unfold dense
  rw [addf_apply, PlainDot.dotGeneral_apply D hD none x w r j, rowDown_apply hb b r j]

/-- A tile's dense layer at (p, j): narrowed operands into a zero accumulator, plus the bias row spread down the tile's
    rows. (A tile recasts some operands to their own shape first; that is the identity and is removed before this reading.) -/
theorem denseTile_apply (D : DotDims ⟨2, ![T, K]⟩ ⟨2, ![K, N]⟩ ⟨2, ![T, N]⟩) (hD : PlainDot.IsPlain D)
    (x : FVec Ideal ⟨2, ![T, K]⟩ .f32) (w : FVec Ideal ⟨2, ![K, N]⟩ .f32) (b : FVec Ideal ⟨2, ![1, N]⟩ .f32)
    (h1 h2 : FTy.bf16.bits < FTy.f32.bits) (hbb : (⟨2, ![1, N]⟩ : Shape).Broadcasts ⟨2, ![T, N]⟩)
    (p : Fin T) (j : Fin N) :
    addf (matmul D none (truncf .bf16 x h1) (truncf .bf16 w h2) (constant (F := Ideal) ⟨2, ![T, N]⟩ .f32 0x00000000#32))
        (broadcastTo ⟨2, ![T, N]⟩ b hbb) (ix2 p j)
      = (∑ k : Fin K, x (ix2 p k) * w (ix2 k j)) + b (ix2 (0 : Fin 1) j) := by
  rw [addf_apply, broadcastTo_1b_ab_apply b hbb p j]
  exact congrArg (· + b (ix2 (0 : Fin 1) j))
    (PlainDot.matmul_zero_apply D hD none (truncf .bf16 x h1) (truncf .bf16 w h2) p j)

/-- THE DENSE LAW: a tile holding the rows off + p of x computes the rows off + p of the whole layer. -/
theorem denseTile_eq_dense (Dt : DotDims ⟨2, ![T, K]⟩ ⟨2, ![K, N]⟩ ⟨2, ![T, N]⟩) (hDt : PlainDot.IsPlain Dt)
    (D : DotDims ⟨2, ![M, K]⟩ ⟨2, ![K, N]⟩ ⟨2, ![M, N]⟩) (hD : PlainDot.IsPlain D)
    (hb : (⟨2, ![1, N]⟩ : Shape).BroadcastsInDim ⟨2, ![M, N]⟩ (![0, 1] : Fin 2 → Fin 2))
    (X : FVec Ideal ⟨2, ![M, K]⟩ .f32) (w : FVec Ideal ⟨2, ![K, N]⟩ .f32) (b : FVec Ideal ⟨2, ![1, N]⟩ .f32)
    (x : FVec Ideal ⟨2, ![T, K]⟩ .f32) (h1 h2 : FTy.bf16.bits < FTy.f32.bits)
    (hbb : (⟨2, ![1, N]⟩ : Shape).Broadcasts ⟨2, ![T, N]⟩)
    (p : Fin T) (r : Fin M) (j : Fin N) (hx : ∀ k : Fin K, x (ix2 p k) = X (ix2 r k)) :
    addf (matmul Dt none (truncf .bf16 x h1) (truncf .bf16 w h2) (constant (F := Ideal) ⟨2, ![T, N]⟩ .f32 0x00000000#32))
        (broadcastTo ⟨2, ![T, N]⟩ b hbb) (ix2 p j)
      = dense D hb X w b (ix2 r j) := by
  rw [denseTile_apply Dt hDt x w b h1 h2 hbb p j, dense_apply D hD hb X w b r j]
  exact congrArg (· + b (ix2 (0 : Fin 1) j)) (Finset.sum_congr rfl fun k _ => by rw [hx k])

/-! ## The edge scaling -/

/-- The host's edge scaling over a weight column: the messages times the column spread across the lanes. -/
def scale (hb : (⟨2, ![E, 1]⟩ : Shape).BroadcastsInDim ⟨2, ![E, N]⟩ (![0, 1] : Fin 2 → Fin 2))
    (g : FVec Ideal ⟨2, ![E, N]⟩ .f32) (col : FVec Ideal ⟨2, ![E, 1]⟩ .f32) : FVec Ideal ⟨2, ![E, N]⟩ .f32 :=
  mulf g (broadcastInDim ⟨2, ![E, N]⟩ (![0, 1] : Fin 2 → Fin 2) hb col)

/-- A column spread across the lanes by the host reads, at (e, j), the column's entry e. -/
theorem colAcross_apply {α : Type} (hb : (⟨2, ![E, 1]⟩ : Shape).BroadcastsInDim ⟨2, ![E, N]⟩ (![0, 1] : Fin 2 → Fin 2))
    (col : (⟨2, ![E, 1]⟩ : Shape).Idx → α) (e : Fin E) (j : Fin N) :
    broadcastInDim ⟨2, ![E, N]⟩ (![0, 1] : Fin 2 → Fin 2) hb col (ix2 e j) = col (ix2 e (0 : Fin 1)) := by
  refine broadcastInDim_apply _ hb col (ix2 e j) (ix2 e (0 : Fin 1)) fun a => ?_
  match a with
  | ⟨0, _⟩ =>
    show e.val = if E = 1 then 0 else e.val
    split
    · have := e.isLt; omega
    · rfl
  | ⟨1, _⟩ => rfl

/-- The host's edge scaling at (e, j). -/
theorem scale_apply (hb : (⟨2, ![E, 1]⟩ : Shape).BroadcastsInDim ⟨2, ![E, N]⟩ (![0, 1] : Fin 2 → Fin 2))
    (g : FVec Ideal ⟨2, ![E, N]⟩ .f32) (col : FVec Ideal ⟨2, ![E, 1]⟩ .f32) (e : Fin E) (j : Fin N) :
    scale hb g col (ix2 e j) = g (ix2 e j) * col (ix2 e (0 : Fin 1)) := by
  unfold scale
  rw [mulf_apply, colAcross_apply hb col e j]

/-- THE SCALING LAW: a tile holding the rows off + p of the messages and of the column computes those rows of the whole
    scaling. (The tile's identical recasts of both operands are removed before this reading.) -/
theorem scaleTile_eq_scale (hb : (⟨2, ![E, 1]⟩ : Shape).BroadcastsInDim ⟨2, ![E, N]⟩ (![0, 1] : Fin 2 → Fin 2))
    (Gm : FVec Ideal ⟨2, ![E, N]⟩ .f32) (Col : FVec Ideal ⟨2, ![E, 1]⟩ .f32)
    (g : FVec Ideal ⟨2, ![T, N]⟩ .f32) (col : FVec Ideal ⟨2, ![T, 1]⟩ .f32)
    (hbb : (⟨2, ![T, 1]⟩ : Shape).Broadcasts ⟨2, ![T, N]⟩)
    (p : Fin T) (e : Fin E) (j : Fin N) (hgx : g (ix2 p j) = Gm (ix2 e j)) (hcx : col (ix2 p (0 : Fin 1)) = Col (ix2 e (0 : Fin 1))) :
    mulf g (broadcastTo ⟨2, ![T, N]⟩ col hbb) (ix2 p j) = scale hb Gm Col (ix2 e j) := by
  rw [mulf_apply, Keepdims.broadcastTo_a1_ab_apply col hbb p j, scale_apply hb Gm Col e j, hgx, hcx]

/-! ## The rectifier -/

/-- The host's zero splat reads the zero word's value everywhere. -/
theorem zeroSplat_apply (s : Shape) (h : (⟨0, ![]⟩ : Shape).BroadcastsInDim s (![] : Fin 0 → Fin s.rank)) (i : s.Idx) :
    broadcastInDim s (![] : Fin 0 → Fin s.rank) h (constant (F := Ideal) ⟨0, ![]⟩ .f32 0x00000000#32) i
      = Ideal.ofBits .f32 0x00000000#32 :=
  broadcastInDim_apply _ h _ i (fun a => a.elim0) (fun a => a.elim0)

/-- The host's rectifier: the maximum with the zero splat. -/
def relu (s : Shape) (h : (⟨0, ![]⟩ : Shape).BroadcastsInDim s (![] : Fin 0 → Fin s.rank)) (a : FVec Ideal s .f32) : FVec Ideal s .f32 :=
  maximumf a (broadcastInDim s (![] : Fin 0 → Fin s.rank) h (constant (F := Ideal) ⟨0, ![]⟩ .f32 0x00000000#32))

/-- A tile's rectifier — the maximum with a splat of the scalar zero — at an index whose value is the whole array's at
    another index, is the host's rectifier of the whole array there. -/
theorem reluTile_eq_relu (s s' : Shape) (h : (⟨0, ![]⟩ : Shape).BroadcastsInDim s (![] : Fin 0 → Fin s.rank))
    (A : FVec Ideal s .f32) (a : FVec Ideal s' .f32) (j : s'.Idx) (i : s.Idx) (hai : a j = A i) :
    maximumf a (broadcast s' (Scalar.ofBits (F := Ideal) .f32 0x00000000#32)) j = relu s h A i := by
  unfold relu
  rw [maximumf_apply, maximumf_apply, zeroSplat_apply s h i, hai]
  rfl

/-! ## A vector recast as a row or a column is the vector spread into that shape -/

/-- A vector recast as a one-row matrix is the vector spread along the row. -/
theorem rowCast_eq_rowSpread {α : Type} (b : (⟨1, ![N]⟩ : Shape).Idx → α) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ (![1] : Fin 1 → Fin 2) hb b := by
  funext i
  obtain ⟨u, j, rfl⟩ : ∃ (u : Fin 1) (j : Fin N), i = ix2 u j := ⟨i 0, i 1, eq_ix2 i⟩
  rw [shapeCast_a_1a_apply b hc u j]
  refine (broadcastInDim_apply _ hb b (ix2 u j) (ix1 j) fun a => ?_).symm
  match a with
  | ⟨0, _⟩ =>
    show j.val = if N = 1 then 0 else j.val
    split
    · have := j.isLt; omega
    · rfl

/-- A vector recast as a one-column matrix is the vector spread down the column. -/
theorem colCast_eq_colSpread {α : Type} (w : (⟨1, ![E]⟩ : Shape).Idx → α) (hc : (⟨1, ![E]⟩ : Shape).ShapeCasts ⟨2, ![E, 1]⟩)
    (hb : (⟨1, ![E]⟩ : Shape).BroadcastsInDim ⟨2, ![E, 1]⟩ (![0] : Fin 1 → Fin 2)) :
    shapeCast ⟨2, ![E, 1]⟩ w hc = broadcastInDim ⟨2, ![E, 1]⟩ (![0] : Fin 1 → Fin 2) hb w := by
  funext i
  obtain ⟨e, u, rfl⟩ : ∃ (e : Fin E) (u : Fin 1), i = ix2 e u := ⟨i 0, i 1, eq_ix2 i⟩
  rw [Keepdims.shapeCast_a_a1_apply w hc e u]
  refine (broadcastInDim_apply _ hb w (ix2 e u) (ix1 e) fun a => ?_).symm
  match a with
  | ⟨0, _⟩ =>
    show e.val = if E = 1 then 0 else e.val
    split
    · have := e.isLt; omega
    · rfl

end GcnLaws

end
-- ==== Proof.KernelTiles.lean ====
/-
  What one row tile of each tiled pipeline computes, entry by entry, on the extended reals.

  First pipeline, a tile of 2000 rows x of the features, the whole 128×128 weights w₁ and w_g, the bias as a one-row matrix b:
    first output   h(p, j) = Σ_k x(p, k) · w₁(k, j) + b(0, j)
    second output  g(p, j) = Σ_k h(p, k) · w_g(k, j).
  Second pipeline, a tile of 2000 rows of each of the two feature blocks u and v, the two 128×256 halves a and a' of the last
  weight, the last bias as a one-row matrix b':
    output  o(p, j) = (Σ_k u(p, k) · a(k, j) + Σ_k v(p, k) · a'(k, j)) + b'(0, j).
  Narrowing an operand to a shorter float format and recasting it to its own shape are the identity on the extended reals,
  and a product into the zero accumulator is the plain sum over the contracted axis.
-/
import proofs.«147124_j61907658604753_1_alg».proof.Proof.Gen.KernelIdeal.Skeleton
import proofs.«147124_j61907658604753_1_alg».proof.Proof.LibPlainDot
import proofs.«147124_j61907658604753_1_alg».proof.Proof.LibGcnLaws
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tiles

open Cert.KernelIdeal Cert.KernelIdeal.Gen Idealize.ShloMosaic Idealize.ShloMosaic.ValueIdx

/-- The tile product [2000, 128] × [128, 128] contracts the left operand's columns with the right operand's rows. -/
theorem plain128 : PlainDot.IsPlain dot_S2000x128_S128x128_S2000x128_1_0_0_1_n_n where
  rank := rfl
  size := rfl
  lhs0 := fun i q => by
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  lhs1 := fun i q => dot_S2000x128_S128x128_S2000x128_1_0_0_1_n_n.lhsIdx_val_of_single rfl i q
  rhs0 := fun i q => dot_S2000x128_S128x128_S2000x128_1_0_0_1_n_n.rhsIdx_val_of_single rfl i q
  rhs1 := fun i q => by
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The tile product [2000, 128] × [128, 256] contracts the left operand's columns with the right operand's rows. -/
theorem plain256 : PlainDot.IsPlain dot_S2000x128_S128x256_S2000x256_1_0_0_1_n_n where
  rank := rfl
  size := rfl
  lhs0 := fun i q => by
    unfold DotDims.lhsIdx
    rw [dif_neg (show ¬(0 : Fin S2000x128.rank) ∈ dot_S2000x128_S128x256_S2000x256_1_0_0_1_n_n.lhsBatch by decide),
      dif_pos (show (0 : Fin S2000x128.rank) ∈ dot_S2000x128_S128x256_S2000x256_1_0_0_1_n_n.lhsNonContracting by decide)]
    rfl
  lhs1 := fun i q => dot_S2000x128_S128x256_S2000x256_1_0_0_1_n_n.lhsIdx_val_of_single rfl i q
  rhs0 := fun i q => dot_S2000x128_S128x256_S2000x256_1_0_0_1_n_n.rhsIdx_val_of_single rfl i q
  rhs1 := fun i q => by
    unfold DotDims.rhsIdx
    rw [dif_neg (show ¬(1 : Fin S128x256.rank) ∈ dot_S2000x128_S128x256_S2000x256_1_0_0_1_n_n.rhsBatch by decide),
      dif_pos (show (1 : Fin S128x256.rank) ∈ dot_S2000x128_S128x256_S2000x256_1_0_0_1_n_n.rhsNonContracting by decide)]
    rfl

/-- The first pipeline's first output at entry (p, j) of a tile: the dense layer of the tile's rows. -/
theorem hidden_apply (x : Vec Ideal S2000x128 .f32) (w1 : Vec Ideal S128x128 .f32) (b : Vec Ideal S1x128 .f32)
    (p : Fin 2000) (j : Fin 128) :
    k0_pay1 (F := Ideal) x w1 b (ix2 p j) = (∑ k : Fin 128, x (ix2 p k) * w1 (ix2 k j)) + b (ix2 (0 : Fin 1) j) := by
  unfold k0_pay1
  rw [shapeCast_self]
  exact GcnLaws.denseTile_apply dot_S2000x128_S128x128_S2000x128_1_0_0_1_n_n plain128 x w1 b _ _ _ p j

/-- The first pipeline's second output at entry (p, j) of a tile: the tile's first output times the second weight. -/
theorem projected_apply (x : Vec Ideal S2000x128 .f32) (w1 : Vec Ideal S128x128 .f32) (b : Vec Ideal S1x128 .f32)
    (wg : Vec Ideal S128x128 .f32) (p : Fin 2000) (j : Fin 128) :
    k0_pay2 (F := Ideal) x w1 b wg (ix2 p j) = ∑ k : Fin 128, k0_pay1 (F := Ideal) x w1 b (ix2 p k) * wg (ix2 k j) := by
  unfold k0_pay2
  exact PlainDot.matmul_zero_apply dot_S2000x128_S128x128_S2000x128_1_0_0_1_n_n plain128 none
    (truncf .bf16 (k0_pay1 (F := Ideal) x w1 b) bitsLt_bf16_f32) (truncf .bf16 wg bitsLt_bf16_f32) p j

/-- The second pipeline's output at entry (p, j) of a tile: the two half products added, plus the bias row. -/
theorem combined_apply (u v : Vec Ideal S2000x128 .f32) (a a' : Vec Ideal S128x256 .f32) (b : Vec Ideal S1x256 .f32)
    (p : Fin 2000) (j : Fin 256) :
    k1_pay1 (F := Ideal) u v a a' b (ix2 p j)
      = ((∑ k : Fin 128, u (ix2 p k) * a (ix2 k j)) + ∑ k : Fin 128, v (ix2 p k) * a' (ix2 k j)) + b (ix2 (0 : Fin 1) j) := by
  unfold k1_pay1
  simp only [shapeCast_self]
  rw [addf_apply, addf_apply, broadcastTo_1b_ab_apply b _ p j]
  exact congrArg (· + b (ix2 (0 : Fin 1) j)) (congrArg₂ (· + ·)
    (PlainDot.matmul_zero_apply dot_S2000x128_S128x256_S2000x256_1_0_0_1_n_n plain256 none
      (truncf .bf16 u bitsLt_bf16_f32) (truncf .bf16 a bitsLt_bf16_f32) p j)
    (PlainDot.matmul_zero_apply dot_S2000x128_S128x256_S2000x256_1_0_0_1_n_n plain256 none
      (truncf .bf16 v bitsLt_bf16_f32) (truncf .bf16 a' bitsLt_bf16_f32) p j))

end Cert.KernelIdeal.Tiles

end
-- ==== Proof.LibJoinLayout.lean ====
/-
  Layout facts for a matrix product whose contracted axis is two feature blocks joined side by side, each saying which
  entry of the operand an entry of the result reads. General over the extents.
    • two matrices joined along the columns: entry (r, k) is the first matrix at (r, k) for k below its width, and the
      second at (r, k − width) from there on;
    • a block of columns of a weight matrix, from column o, transposed: entry (k, j) is the matrix at (j, o + k);
    • a vector spread as one row and then down the rows: entry (p, c) is the vector at c;
    • a scalar constant spread over a matrix: every entry is the constant's extended real.
-/
import Idealize.ShloMosaic.Lib.Pipeline.Value
import Idealize.ShloMosaic.Lib.ValueIdx
import Idealize.ShloMosaic.Lib.ValueLayout

namespace JoinLayout

open Idealize.ShloMosaic Idealize.ShloMosaic.ValueIdx

variable {α : Type}

/-- Two matrices joined along the columns read, at `(r, k)` with `k` below the first one's width, the first at `(r, k)`. -/
theorem concatenate_cols_left {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₁ : Fin K₁) (hk : k₁.val = k.val) :
    concatenate ⟨2, ![M, K]⟩ 1 [⟨⟨2, ![M, K₁]⟩, x⟩, ⟨⟨2, ![M, K₂]⟩, y⟩] h (ix2 r k) = x (ix2 r k₁) :=
  concatenate_pair_apply_left 1 x y h (ix2 r k) rfl (ix2 r k₁) fun b => by
    match b with
    | ⟨0, _⟩ => rfl
    | ⟨1, _⟩ => exact hk

/-- Two matrices joined along the columns read, at `(r, k)` with `k` at or past the first one's width, the second at
    `(r, k − width)`. -/
theorem concatenate_cols_right {M K₁ K₂ K : ℕ} (x : (⟨2, ![M, K₁]⟩ : Shape).Idx → α) (y : (⟨2, ![M, K₂]⟩ : Shape).Idx → α)
    (h : Shape.Concatenates [(⟨2, ![M, K₁]⟩ : Shape), ⟨2, ![M, K₂]⟩] ⟨2, ![M, K]⟩ 1)
    (r : Fin M) (k : Fin K) (k₂ : Fin K₂) (hk : k₂.val + K₁ = k.val) :
    concatenate ⟨2, ![M, K]⟩ 1 [⟨⟨2, ![M, K₁]⟩, x⟩, ⟨⟨2, ![M, K₂]⟩, y⟩] h (ix2 r k) = y (ix2 r k₂) :=
  concatenate_pair_apply_right 1 x y h (ix2 r k) rfl rfl (ix2 r k₂)
    (fun b hb => by
      match b, hb with
      | ⟨0, _⟩, _ => rfl
      | ⟨1, _⟩, hb => exact absurd (Fin.ext rfl) hb)
    hk

/-- A block of columns of a matrix, from column `o`, transposed, reads at `(k, j)` the matrix at `(j, o + k)`. -/
theorem transpose_slice_cols_apply {N K K' : ℕ} (o : ℕ) (W : (⟨2, ![N, K]⟩ : Shape).Idx → α)
    (hs : (⟨2, ![N, K]⟩ : Shape).Slices ![0, o] ⟨2, ![N, K']⟩) (ht : (⟨2, ![N, K']⟩ : Shape).Transposes [1, 0] ⟨2, ![K', N]⟩)
    (k : Fin K') (j : Fin N) (k' : Fin K) (hk : k'.val = o + k.val) :
    transpose ⟨2, ![K', N]⟩ [1, 0] (extractStridedSlice ⟨2, ![N, K']⟩ ![0, o] W hs) ht (ix2 k j) = W (ix2 j k') :=
  (transpose_ix2_apply _ ht k j).trans (slice2_axis1_apply o W hs j k k' hk)

/-- A vector `[b]` spread as the row `[1, b]` and then down `a` rows reads, at `(p, c)`, entry `c`. -/
theorem broadcastInDim_row_of_vec_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 x) (ix2 p c) = x (ix1 c) := by
  refine (broadcastInDim_apply _ h2 _ (ix2 p c) (ix2 (0 : Fin 1) c) fun ax => ?_).trans
    (broadcastInDim_apply _ h1 x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scalar constant spread over any shape reads, at every index, the extended real its word encodes. -/
theorem broadcastInDim_constant_apply {t : Shape} {φ : FTy} (w : BitVec φ.bits)
    (h : (⟨0, ![]⟩ : Shape).BroadcastsInDim t (![] : Fin 0 → Fin t.rank)) (i : t.Idx) :
    broadcastInDim t ![] h (constant (F := Ideal) ⟨0, ![]⟩ φ w) i = Ideal.ofBits φ w := rfl

end JoinLayout
-- ==== Proof.LibSplitSum.lean ====
/-
  A finite sum over a range of K₁ + K₂ positions, split into its first K₁ and its last K₂ positions: if the summand is
  f on the first block (position k) and g on the second (position K₁ + k), the sum is Σ f + Σ g. Stated over any
  additive commutative monoid, so it needs no finiteness of the values and no cancellation; the range is written as
  `Fin K` with `K₁ + K₂ = K` a hypothesis, so that it applies to a literal extent such as 64 = 32 + 32.
-/
import Mathlib.Algebra.BigOperators.Fin

namespace SplitSum

open scoped BigOperators

/-- A sum over `K = K₁ + K₂` positions of a function that is `f` on the first `K₁` positions and `g` on the last `K₂`
    is the sum of `f` plus the sum of `g`. -/
theorem sum_eq_add_of_blocks {M : Type*} [AddCommMonoid M] {K K₁ K₂ : ℕ} (hK : K₁ + K₂ = K)
    (F : Fin K → M) (f : Fin K₁ → M) (g : Fin K₂ → M)
    (hf : ∀ k : Fin K₁, F ⟨k.val, by have := k.isLt; omega⟩ = f k)
    (hg : ∀ k : Fin K₂, F ⟨K₁ + k.val, by have := k.isLt; omega⟩ = g k) :
    ∑ k, F k = ∑ k, f k + ∑ k, g k := by
  subst hK
  rw [Fin.sum_univ_add]
  congr 1
  · exact Finset.sum_congr rfl fun k _ => hf k
  · exact Finset.sum_congr rfl fun k _ => hg k

end SplitSum
-- ==== Proof.RefLayers.lean ====
/-
  The reference program's layers, each read at an entry on the extended reals, and its graph convolution as one function.

  With feature rows x, weights w₁, w_g, W and biases b₁, b_g, b:
    hidden     h(r, j) = Σ_k x(r, k) · w₁(k, j) + b₁(j)
    projected  g(r, j) = Σ_k h(r, k) · w_g(k, j)
    convolved  q = conv(g, edges, b_g)   — self-loops appended, symmetric degree scaling, scatter-add over the targets, bias
    combined   o(r, j) = Σ_{k<256} [h | q](r, k) · W(k, j) + b(j)
                       = (Σ_{k<128} h(r, k) · W(k, j) + Σ_{k<128} q(r, k) · W(128 + k, j)) + b(j).
  The last line only splits a finite sum into its first and last 128 positions, which needs no finiteness of the values:
  addition of extended reals is commutative and associative. The convolution is never opened.
-/
import proofs.«147124_j61907658604753_1_alg».proof.Proof.RefRead
import proofs.«147124_j61907658604753_1_alg».proof.Proof.LibPlainDot
import proofs.«147124_j61907658604753_1_alg».proof.Proof.LibPlainDotGeneral
import proofs.«147124_j61907658604753_1_alg».proof.Proof.LibJoinLayout
import proofs.«147124_j61907658604753_1_alg».proof.Proof.LibSplitSum
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layers

open Cert.ReferenceIdeal Cert.ReferenceIdeal.Gen Cert.ReferenceIdeal.ReadP Idealize.ShloMosaic Idealize.ShloMosaic.ValueIdx

variable {F : FTy → Type} [FloatOps F]

/-- The product [50000, 128] × [128, 128] contracts the left operand's columns with the right operand's rows. -/
theorem plain128 : PlainDot.IsPlain dot_S50000x128_S128x128_S50000x128_1_0_0_1_n_n where
  rank := rfl
  size := rfl
  lhs0 := lhs_main_v0_0
  lhs1 := lhs_main_v0_1
  rhs0 := rhs_main_v0_0
  rhs1 := rhs_main_v0_1

/-- The product [50000, 256] × [256, 256] contracts the left operand's columns with the right operand's rows. -/
theorem plain256 : PlainDot.IsPlain dot_S50000x256_S256x256_S50000x256_1_0_0_1_n_n where
  rank := rfl
  size := rfl
  lhs0 := lhs_main_v52_0
  lhs1 := lhs_main_v52_1
  rhs0 := rhs_main_v52_0
  rhs1 := rhs_main_v52_1

/-- The hidden layer at entry (r, j). -/
theorem hidden_apply (x : (⟨S50000x128, .f32⟩ : BufTy).Contents (Elt Ideal)) (w1 : (⟨S128x128, .f32⟩ : BufTy).Contents (Elt Ideal))
    (b1 : (⟨S128, .f32⟩ : BufTy).Contents (Elt Ideal)) (r : Fin 50000) (j : Fin 128) :
    val_main_v3 (F := Ideal) x w1 b1 (ix2 r j) = (∑ k : Fin 128, x (ix2 r k) * w1 (ix2 k j)) + b1 (ix1 j) := by
  unfold val_main_v3 val_main_v0 val_main_v2 val_main_v1
  rw [addf_apply, PlainDot.dotGeneral_apply dot_S50000x128_S128x128_S50000x128_1_0_0_1_n_n plain128 none x w1 r j,
    JoinLayout.broadcastInDim_row_of_vec_apply b1 bcast_S128_S1x128_1 bcast_S1x128_S50000x128_0_1 r j]

/-- The projected features at entry (r, j). -/
theorem projected_apply (x : (⟨S50000x128, .f32⟩ : BufTy).Contents (Elt Ideal)) (w1 : (⟨S128x128, .f32⟩ : BufTy).Contents (Elt Ideal))
    (b1 : (⟨S128, .f32⟩ : BufTy).Contents (Elt Ideal)) (wg : (⟨S128x128, .f32⟩ : BufTy).Contents (Elt Ideal)) (r : Fin 50000) (j : Fin 128) :
    val_main_v4 (F := Ideal) x w1 b1 wg (ix2 r j) = ∑ k : Fin 128, val_main_v3 (F := Ideal) x w1 b1 (ix2 r k) * wg (ix2 k j) := by
  unfold val_main_v4
  exact PlainDot.dotGeneral_apply dot_S50000x128_S128x128_S50000x128_1_0_0_1_n_n plain128 none _ wg r j

/-- The graph convolution of already projected features: gather the sources' rows, scale each message by the product of
    the two endpoints' inverse square-root degrees, add the messages up at their targets, add the bias. One function
    of the projected features, the edge list and the bias; its inside is the program's own operations. -/
def conv (g : (⟨S50000x128, .f32⟩ : BufTy).Contents (Elt F)) (e : (⟨S2x800000, .i32⟩ : BufTy).Contents (Elt F))
    (bg : (⟨S128, .f32⟩ : BufTy).Contents (Elt F)) : (⟨S50000x128, .f32⟩ : BufTy).Contents (Elt F) :=
  addf (Host.scatterAdd scatter_S50000x128_S850000x1_S850000x128_1_0_0_1 (val_main_v45 (F := F)) (val_main_v46 (F := F) e)
      (mulf (Host.gather gather_S50000x128_S850000x1_S850000x128_1_0_n_n_0_1_1128 g (val_main_v40 (F := F) e)) (val_main_v43 (F := F) e)))
    (val_main_v49 (F := F) bg)

/-- The program's convolved features are the convolution of its projected features. -/
theorem convolved_eq (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (wg : (⟨S128x128, .f32⟩ : BufTy).Contents (Elt F)) (bg : (⟨S128, .f32⟩ : BufTy).Contents (Elt F)) :
    val_main_v50 (F := F) x e w1 b1 wg bg = conv (val_main_v4 (F := F) x w1 b1 wg) e bg := rfl

/-- The last layer as one function of the two feature blocks it joins, the weight and the bias. -/
def combine (h q : (⟨S50000x128, .f32⟩ : BufTy).Contents (Elt F)) (W : (⟨S256x256, .f32⟩ : BufTy).Contents (Elt F))
    (b : (⟨S256, .f32⟩ : BufTy).Contents (Elt F)) : (⟨S50000x256, .f32⟩ : BufTy).Contents (Elt F) :=
  addf (Host.dotGeneral dot_S50000x256_S256x256_S50000x256_1_0_0_1_n_n none
      (concatenate S50000x256 1 [⟨S50000x128, h⟩, ⟨S50000x128, q⟩] concatenates_S50000x128_S50000x128_S50000x256_d1) W)
    (val_main_v54 (F := F) b)

/-- The program's result is the last layer of its hidden and convolved features. -/
theorem result_eq (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (wg : (⟨S128x128, .f32⟩ : BufTy).Contents (Elt F)) (bg : (⟨S128, .f32⟩ : BufTy).Contents (Elt F))
    (W : (⟨S256x256, .f32⟩ : BufTy).Contents (Elt F)) (b : (⟨S256, .f32⟩ : BufTy).Contents (Elt F)) :
    val_main_v55 (F := F) x e w1 b1 wg bg W b
      = combine (val_main_v3 (F := F) x w1 b1) (conv (val_main_v4 (F := F) x w1 b1 wg) e bg) W b := rfl

/-- The last layer at entry (r, j), its contraction over the 256 joined columns split into the two blocks of 128. -/
theorem combine_apply (h q : (⟨S50000x128, .f32⟩ : BufTy).Contents (Elt Ideal)) (W : (⟨S256x256, .f32⟩ : BufTy).Contents (Elt Ideal))
    (b : (⟨S256, .f32⟩ : BufTy).Contents (Elt Ideal)) (r : Fin 50000) (j : Fin 256) :
    combine (F := Ideal) h q W b (ix2 r j)
      = ((∑ k : Fin 128, h (ix2 r k) * W (ix2 (⟨k.val, by have := k.isLt; omega⟩ : Fin 256) j))
          + ∑ k : Fin 128, q (ix2 r k) * W (ix2 (⟨128 + k.val, by have := k.isLt; omega⟩ : Fin 256) j)) + b (ix1 j) := by
  unfold combine val_main_v54 val_main_v53
  rw [addf_apply, PlainDot.dotGeneral_apply dot_S50000x256_S256x256_S50000x256_1_0_0_1_n_n plain256 none _ W r j,
    JoinLayout.broadcastInDim_row_of_vec_apply b bcast_S256_S1x256_1 bcast_S1x256_S50000x256_0_1 r j]
  refine congrArg (· + b (ix1 j)) (SplitSum.sum_eq_add_of_blocks (K₁ := 128) (K₂ := 128) rfl _ _ _ (fun k => ?_) (fun k => ?_))
  · rw [JoinLayout.concatenate_cols_left h q concatenates_S50000x128_S50000x128_S50000x256_d1 r _ k rfl]
  · rw [JoinLayout.concatenate_cols_right h q concatenates_S50000x128_S50000x128_S50000x256_d1 r _ k (Nat.add_comm _ _)]

end Cert.ReferenceIdeal.Layers

end
-- ==== Proof.FirstPipeline.lean ====
/-
  The first tiled pipeline's two result arrays, each as one function of the arrays the pipeline finds when it is entered.

  The grid has 25 points; point t works on rows 2000·t … 2000·t + 1999 of the feature matrix, with both 128×128 weights and the
  one-row bias whole at every point, and writes back rows 2000·t … of both results. A tile's dense layer of its rows is the
  whole dense layer at those rows — only the row index moves, no sum is regrouped — so what point t writes back is block t
  of the whole hidden layer, and of the whole projected features; the 25 blocks tile the 50000 rows, so each result array
  ends holding the whole function. The bias reaches the pipeline recast from a vector to a one-row matrix.
-/
import proofs.«147124_j61907658604753_1_alg».proof.Proof.Gen.KernelIdeal.Frame
import proofs.«147124_j61907658604753_1_alg».proof.Proof.KernelTiles
import proofs.«147124_j61907658604753_1_alg».proof.Proof.RefLayers
import Idealize.ShloMosaic.Lib.Pipeline.Value
import Idealize.ShloMosaic.Lib.ValueIdx
import Idealize.ShloMosaic.Lib.ValueLayout

set_option maxRecDepth 16384

noncomputable section

namespace Cert.KernelIdeal.First

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the features and both results move down one block of rows per point; the weights
    and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block at point t is rows 2000·t … of the feature matrix. -/
theorem rows_apply (c : Dev nD) (t : Fin cfg0.N) (p : Fin 2000) (k : Fin 128) (r : Fin 50000) (hr : r.val = 2000 * t.val + p.val) :
    (iblk0 V c 0 t : Vec Ideal S2000x128 .f32) (ix2 p k) = (V c main_arg0 : Vec Ideal S50000x128 .f32) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The first weight's block at every point is the whole weight. -/
theorem w1_eq (c : Dev nD) (t : Fin cfg0.N) : (iblk0 V c 1 t : Vec Ideal S128x128 .f32) = V c main_arg3 := by
  obtain ⟨-, -, e0, e1, -⟩ := idx_facts t
  funext y
  unfold iblk0
  rw [View.read_apply]
  show V c main_arg3 _ = V c main_arg3 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block at every point is the whole row. -/
theorem bias_eq (c : Dev nD) (t : Fin cfg0.N) : (iblk0 V c 2 t : Vec Ideal S1x128 .f32) = V c main_v0 := by
  obtain ⟨-, -, -, -, e0, e1, -⟩ := idx_facts t
  funext y
  unfold iblk0
  rw [View.read_apply]
  show V c main_v0 _ = V c main_v0 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight's block at every point is the whole weight. -/
theorem wg_eq (c : Dev nD) (t : Fin cfg0.N) : (iblk0 V c 3 t : Vec Ideal S128x128 .f32) = V c main_arg5 := by
  obtain ⟨-, -, -, -, -, -, e0, e1, -⟩ := idx_facts t
  funext y
  unfold iblk0
  rw [View.read_apply]
  show V c main_arg5 _ = V c main_arg5 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The whole hidden layer of the arrays the pipeline finds, the bias given as the vector b₁ the one-row matrix was made from. -/
abbrev hidden (c : Dev nD) (b1 : Vec Ideal S128 .f32) : Buf (Elt Ideal) ((c : Thread nD τ).loc main_v1_0) :=
  Cert.ReferenceIdeal.ReadP.val_main_v3 (F := Ideal) (V c main_arg0) (V c main_arg3) b1

/-- The whole projected features of the arrays the pipeline finds. -/
abbrev projected (c : Dev nD) (b1 : Vec Ideal S128 .f32) : Buf (Elt Ideal) ((c : Thread nD τ).loc main_v1_1) :=
  Cert.ReferenceIdeal.ReadP.val_main_v4 (F := Ideal) (V c main_arg0) (V c main_arg3) b1 (V c main_arg5)

/-- A tile's hidden rows are the whole hidden layer's rows 2000·t + p. -/
theorem tile_hidden (c : Dev nD) (t : Fin cfg0.N) (b1 : Vec Ideal S128 .f32)
    (hb : V c main_v0 = shapeCast S1x128 b1 shapeCasts_S128_S1x128)
    (p : Fin 2000) (j : Fin 128) (r : Fin 50000) (hr : r.val = 2000 * t.val + p.val) :
    k0_pay1 (F := Ideal) (iblk0 V c 0 t) (iblk0 V c 1 t) (iblk0 V c 2 t) (ix2 p j) = hidden V c b1 (ix2 r j) := by
  refine (Tiles.hidden_apply (iblk0 V c 0 t) (iblk0 V c 1 t) (iblk0 V c 2 t) p j).trans ?_
  refine Eq.trans ?_ (Cert.ReferenceIdeal.Layers.hidden_apply (V c main_arg0) (V c main_arg3) b1 r j).symm
  rw [w1_eq V c t, bias_eq V c t, hb]
  refine congrArg₂ (· + ·) (Finset.sum_congr rfl fun k _ => ?_) (shapeCast_a_1a_apply b1 shapeCasts_S128_S1x128 0 j)
  rw [rows_apply V c t p k r hr]

/-- What point t writes back to the first result is block t of the whole hidden layer. -/
theorem hidden_flushed (c : Dev nD) (t : Fin cfg0.N) (b1 : Vec Ideal S128 .f32)
    (hb : V c main_v0 = shapeCast S1x128 b1 shapeCasts_S128_S1x128) :
    (dat0 V c).flushed 4 t = ((cfg0.win 4).blk t).view.read (Elt Ideal) (hidden V c b1) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S1x128) hz]
  obtain ⟨-, -, -, -, -, -, -, -, e0, e1, -⟩ := idx_facts t
  have hN : cfg0.N = 25 := N_0
  have ht : t.val < 25 := hN ▸ t.isLt
  refine funext fun (y : S2000x128.Idx) => ?_
  obtain ⟨p, j, rfl⟩ : ∃ (p : Fin 2000) (j : Fin 128), y = ix2 p j := ⟨y 0, y 1, eq_ix2 y⟩
  have hp : p.val < 2000 := p.isLt
  show k0_pay1 (F := Ideal) (iblk0 V c 0 t) (iblk0 V c 1 t) (iblk0 V c 2 t) (ix2 p j)
    = hidden V c b1 (((cfg0.win 4).blk t).view.emb (ix2 p j))
  have hemb : ((cfg0.win 4).blk t).view.emb (ix2 p j) = ix2 (⟨2000 * t.val + p.val, by omega⟩ : Fin 50000) j := by
    funext a
    apply Fin.ext
    match a with
    | ⟨0, _⟩ => show win0_4.index t (0 : Fin 2) * 2000 + 1 * p.val = 2000 * t.val + p.val; rw [e0]; omega
    | ⟨1, _⟩ => show win0_4.index t (1 : Fin 2) * 128 + 1 * j.val = j.val; rw [e1]; omega
  rw [hemb]
  exact tile_hidden V c t b1 hb p j _ rfl

/-- A tile's projected rows are the whole projected features' rows 2000·t + p. -/
theorem tile_projected (c : Dev nD) (t : Fin cfg0.N) (b1 : Vec Ideal S128 .f32)
    (hb : V c main_v0 = shapeCast S1x128 b1 shapeCasts_S128_S1x128)
    (p : Fin 2000) (j : Fin 128) (r : Fin 50000) (hr : r.val = 2000 * t.val + p.val) :
    k0_pay2 (F := Ideal) (iblk0 V c 0 t) (iblk0 V c 1 t) (iblk0 V c 2 t) (iblk0 V c 3 t) (ix2 p j) = projected V c b1 (ix2 r j) := by
  refine (Tiles.projected_apply (iblk0 V c 0 t) (iblk0 V c 1 t) (iblk0 V c 2 t) (iblk0 V c 3 t) p j).trans ?_
  refine Eq.trans ?_ (Cert.ReferenceIdeal.Layers.projected_apply (V c main_arg0) (V c main_arg3) b1 (V c main_arg5) r j).symm
  rw [wg_eq V c t]
  refine Finset.sum_congr rfl fun k _ => ?_
  rw [tile_hidden V c t b1 hb p k r hr]

/-- What point t writes back to the second result is block t of the whole projected features. -/
theorem projected_flushed (c : Dev nD) (t : Fin cfg0.N) (b1 : Vec Ideal S128 .f32)
    (hb : V c main_v0 = shapeCast S1x128 b1 shapeCasts_S128_S1x128) :
    (dat0 V c).flushed 5 t = ((cfg0.win 5).blk t).view.read (Elt Ideal) (projected V c b1) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  have hN : cfg0.N = 25 := N_0
  have ht : t.val < 25 := hN ▸ t.isLt
  refine funext fun (y : S2000x128.Idx) => ?_
  obtain ⟨p, j, rfl⟩ : ∃ (p : Fin 2000) (j : Fin 128), y = ix2 p j := ⟨y 0, y 1, eq_ix2 y⟩
  have hp : p.val < 2000 := p.isLt
  show k0_pay2 (F := Ideal) (iblk0 V c 0 t) (iblk0 V c 1 t) (iblk0 V c 2 t) (iblk0 V c 3 t) (ix2 p j)
    = projected V c b1 (((cfg0.win 5).blk t).view.emb (ix2 p j))
  have hemb : ((cfg0.win 5).blk t).view.emb (ix2 p j) = ix2 (⟨2000 * t.val + p.val, by omega⟩ : Fin 50000) j := by
    funext a
    apply Fin.ext
    match a with
    | ⟨0, _⟩ => show win0_5.index t (0 : Fin 2) * 2000 + 1 * p.val = 2000 * t.val + p.val; rw [e0]; omega
    | ⟨1, _⟩ => show win0_5.index t (1 : Fin 2) * 128 + 1 * j.val = j.val; rw [e1]; omega
  rw [hemb]
  exact tile_projected V c t b1 hb p j _ rfl

/-- An index of the first result is in point t's block iff its row is among rows 2000·t … 2000·t + 1999. -/
theorem mem_blk4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v1_0).slice (win0_4.rect t)).set ↔ _
  rw [View.set_slice_whole, Rect.mem_set_unit]
  exact Iff.rfl

theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v1_1).slice (win0_5.rect t)).set ↔ _
  rw [View.set_slice_whole, Rect.mem_set_unit]
  exact Iff.rfl

/-- Every row is in the block of the point numbered by its row divided by 2000. -/
theorem cover4 (i : S50000x128.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 128 := (i 1).isLt
  refine ⟨⟨(i 0).val / 2000, by rw [hN]; omega⟩, flush0_4 _, ?_⟩
  obtain ⟨-, -, -, -, -, -, -, -, e0, e1, -⟩ := idx_facts ⟨(i 0).val / 2000, by rw [hN]; omega⟩
  rw [mem_blk4]
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 128 ≤ (i 1).val ∧ (i 1).val < win0_4.index _ (1 : Fin 2) * 128 + 128
    rw [e1]; omega

theorem cover5 (i : S50000x128.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  refine ⟨⟨(i 0).val / 2000, by rw [hN]; omega⟩, flush0_5 _, ?_⟩
  obtain ⟨-, -, -, -, -, -, -, -, -, -, e0, e1⟩ := idx_facts ⟨(i 0).val / 2000, by rw [hN]; omega⟩
  rw [mem_blk5]
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e1]; omega

/-- After the pipeline the first result array holds the whole hidden layer. -/
theorem hidden_final (c : Dev nD) (b1 : Vec Ideal S128 .f32) (hb : V c main_v0 = shapeCast S1x128 b1 shapeCasts_S128_S1x128) :
    (dat0 V c).arrAt 4 cfg0.N = hidden V c b1 :=
  (dat0 V c).arrAt_eq_of_cover 4 (hidden V c b1) (fun t _ => hidden_flushed V c t b1 hb) cover4

/-- After the pipeline the second result array holds the whole projected features. -/
theorem projected_final (c : Dev nD) (b1 : Vec Ideal S128 .f32) (hb : V c main_v0 = shapeCast S1x128 b1 shapeCasts_S128_S1x128) :
    (dat0 V c).arrAt 5 cfg0.N = projected V c b1 :=
  (dat0 V c).arrAt_eq_of_cover 5 (projected V c b1) (fun t _ => projected_flushed V c t b1 hb) cover5

end Cert.KernelIdeal.First

end
-- ==== Proof.SecondPipeline.lean ====
/-
  The second tiled pipeline's result array as one function of the arrays the pipeline finds when it is entered.

  The grid has 25 points; point t works on rows 2000·t … 2000·t + 1999 of the two feature blocks (the hidden layer and the
  convolved features), with the two 128×256 halves of the last weight and the one-row bias whole at every point, and writes
  back rows 2000·t … of the result. The halves are rows 0 … 127 and 128 … 255 of the 256×256 weight W, so a tile computes
    (Σ_{k<128} h(r, k) · W(k, j) + Σ_{k<128} q(r, k) · W(128 + k, j)) + b(j)
  at the rows r = 2000·t + p, which is the last layer over the two blocks joined side by side, its contraction over 256
  positions split at 128. The 25 blocks tile the 50000 rows, so the result array ends holding the whole last layer.
-/
import proofs.«147124_j61907658604753_1_alg».proof.Proof.Gen.KernelIdeal.Frame
import proofs.«147124_j61907658604753_1_alg».proof.Proof.KernelTiles
import proofs.«147124_j61907658604753_1_alg».proof.Proof.RefLayers
import Idealize.ShloMosaic.Lib.Pipeline.Value
import Idealize.ShloMosaic.Lib.ValueIdx
import Idealize.ShloMosaic.Lib.ValueLayout

set_option maxRecDepth 16384

noncomputable section

namespace Cert.KernelIdeal.Second

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two feature blocks and the result move down one block of rows per point; the
    weight halves and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first feature block at point t is rows 2000·t … of the hidden layer's array. -/
theorem rows0_apply (c : Dev nD) (t : Fin cfg1.N) (p : Fin 2000) (k : Fin 128) (r : Fin 50000) (hr : r.val = 2000 * t.val + p.val) :
    (iblk1 V c 0 t : Vec Ideal S2000x128 .f32) (ix2 p k) = (V c main_v1_0 : Vec Ideal S50000x128 .f32) (ix2 r k) := by
  obtain ⟨e0, e1, -⟩ := idx_facts t
  unfold iblk1
  rw [View.read_apply]
  show V c main_v1_0 _ = V c main_v1_0 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The second feature block at point t is rows 2000·t … of the convolved features' array. -/
theorem rows1_apply (c : Dev nD) (t : Fin cfg1.N) (p : Fin 2000) (k : Fin 128) (r : Fin 50000) (hr : r.val = 2000 * t.val + p.val) :
    (iblk1 V c 1 t : Vec Ideal S2000x128 .f32) (ix2 p k) = (V c main_v47 : Vec Ideal S50000x128 .f32) (ix2 r k) := by
  obtain ⟨-, -, e0, e1, -⟩ := idx_facts t
  unfold iblk1
  rw [View.read_apply]
  show V c main_v47 _ = V c main_v47 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The upper weight half's block at every point is the whole half. -/
theorem upper_eq (c : Dev nD) (t : Fin cfg1.N) : (iblk1 V c 2 t : Vec Ideal S128x256 .f32) = V c main_v48 := by
  obtain ⟨-, -, -, -, e0, e1, -⟩ := idx_facts t
  funext y
  unfold iblk1
  rw [View.read_apply]
  show V c main_v48 _ = V c main_v48 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega

/-- The lower weight half's block at every point is the whole half. -/
theorem lower_eq (c : Dev nD) (t : Fin cfg1.N) : (iblk1 V c 3 t : Vec Ideal S128x256 .f32) = V c main_v49 := by
  obtain ⟨-, -, -, -, -, -, e0, e1, -⟩ := idx_facts t
  funext y
  unfold iblk1
  rw [View.read_apply]
  show V c main_v49 _ = V c main_v49 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 256 + 1 * (y 1).val = (y 1).val; rw [e1]; omega

/-- The bias row's block at every point is the whole row. -/
theorem bias_eq (c : Dev nD) (t : Fin cfg1.N) : (iblk1 V c 4 t : Vec Ideal S1x256 .f32) = V c main_v50 := by
  obtain ⟨-, -, -, -, -, -, -, -, e0, e1, -⟩ := idx_facts t
  funext y
  unfold iblk1
  rw [View.read_apply]
  show V c main_v50 _ = V c main_v50 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The whole last layer of the two feature arrays the pipeline finds, for the weight W and bias b that the halves and the
    bias row were made from. -/
abbrev combined (c : Dev nD) (W : Vec Ideal S256x256 .f32) (b : Vec Ideal S256 .f32) : Buf (Elt Ideal) ((c : Thread nD τ).loc main_v51) :=
  Cert.ReferenceIdeal.Layers.combine (F := Ideal) (V c main_v1_0) (V c main_v47) W b

/-- A tile's result rows are the whole last layer's rows 2000·t + p. -/
theorem tile_combined (c : Dev nD) (t : Fin cfg1.N) (W : Vec Ideal S256x256 .f32) (b : Vec Ideal S256 .f32)
    (hu : V c main_v48 = extractStridedSlice S128x256 ![0, 0] W slices_S256x256_S128x256_0_0)
    (hl : V c main_v49 = extractStridedSlice S128x256 ![128, 0] W slices_S256x256_S128x256_128_0)
    (hb : V c main_v50 = shapeCast S1x256 b shapeCasts_S256_S1x256)
    (p : Fin 2000) (j : Fin 256) (r : Fin 50000) (hr : r.val = 2000 * t.val + p.val) :
    k1_pay1 (F := Ideal) (iblk1 V c 0 t) (iblk1 V c 1 t) (iblk1 V c 2 t) (iblk1 V c 3 t) (iblk1 V c 4 t) (ix2 p j)
      = combined V c W b (ix2 r j) := by
  refine (Tiles.combined_apply (iblk1 V c 0 t) (iblk1 V c 1 t) (iblk1 V c 2 t) (iblk1 V c 3 t) (iblk1 V c 4 t) p j).trans ?_
  refine Eq.trans ?_ (Cert.ReferenceIdeal.Layers.combine_apply (V c main_v1_0) (V c main_v47) W b r j).symm
  rw [upper_eq V c t, lower_eq V c t, bias_eq V c t, hu, hl, hb]
  refine congrArg₂ (· + ·) (congrArg₂ (· + ·) (Finset.sum_congr rfl fun k _ => ?_) (Finset.sum_congr rfl fun k _ => ?_))
    (shapeCast_a_1a_apply b shapeCasts_S256_S1x256 0 j)
  · rw [rows0_apply V c t p k r hr, slice2_axis0_apply 0 W slices_S256x256_S128x256_0_0 k j ⟨k.val, by have := k.isLt; omega⟩ (Nat.zero_add _).symm]
  · rw [rows1_apply V c t p k r hr, slice2_axis0_apply 128 W slices_S256x256_S128x256_128_0 k j ⟨128 + k.val, by have := k.isLt; omega⟩ rfl]

/-- What point t writes back is block t of the whole last layer. -/
theorem combined_flushed (c : Dev nD) (t : Fin cfg1.N) (W : Vec Ideal S256x256 .f32) (b : Vec Ideal S256 .f32)
    (hu : V c main_v48 = extractStridedSlice S128x256 ![0, 0] W slices_S256x256_S128x256_0_0)
    (hl : V c main_v49 = extractStridedSlice S128x256 ![128, 0] W slices_S256x256_S128x256_128_0)
    (hb : V c main_v50 = shapeCast S1x256 b shapeCasts_S256_S1x256) :
    (dat1 V c).flushed 5 t = ((cfg1.win 5).blk t).view.read (Elt Ideal) (combined V c W b) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x256) hz, View.ld_unit_zero (S := S1x256) hz]
  obtain ⟨-, -, -, -, -, -, -, -, -, -, e0, e1⟩ := idx_facts t
  have hN : cfg1.N = 25 := N_1
  have ht : t.val < 25 := hN ▸ t.isLt
  refine funext fun (y : S2000x256.Idx) => ?_
  obtain ⟨p, j, rfl⟩ : ∃ (p : Fin 2000) (j : Fin 256), y = ix2 p j := ⟨y 0, y 1, eq_ix2 y⟩
  have hp : p.val < 2000 := p.isLt
  show k1_pay1 (F := Ideal) (iblk1 V c 0 t) (iblk1 V c 1 t) (iblk1 V c 2 t) (iblk1 V c 3 t) (iblk1 V c 4 t) (ix2 p j)
    = combined V c W b (((cfg1.win 5).blk t).view.emb (ix2 p j))
  have hemb : ((cfg1.win 5).blk t).view.emb (ix2 p j) = ix2 (⟨2000 * t.val + p.val, by omega⟩ : Fin 50000) j := by
    funext a
    apply Fin.ext
    match a with
    | ⟨0, _⟩ => show win1_5.index t (0 : Fin 2) * 2000 + 1 * p.val = 2000 * t.val + p.val; rw [e0]; omega
    | ⟨1, _⟩ => show win1_5.index t (1 : Fin 2) * 256 + 1 * j.val = j.val; rw [e1]; omega
  rw [hemb]
  exact tile_combined V c t W b hu hl hb p j _ rfl

/-- An index of the result is in point t's block iff its row is among rows 2000·t … 2000·t + 1999. -/
theorem mem_blk5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v51).slice (win1_5.rect t)).set ↔ _
  rw [View.set_slice_whole, Rect.mem_set_unit]
  exact Iff.rfl

/-- Every row is in the block of the point numbered by its row divided by 2000. -/
theorem cover5 (i : S50000x256.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 256 := (i 1).isLt
  refine ⟨⟨(i 0).val / 2000, by rw [hN]; omega⟩, flush1_5 _, ?_⟩
  obtain ⟨-, -, -, -, -, -, -, -, -, -, e0, e1⟩ := idx_facts ⟨(i 0).val / 2000, by rw [hN]; omega⟩
  rw [mem_blk5]
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e1]; omega

/-- After the pipeline the result array holds the whole last layer. -/
theorem combined_final (c : Dev nD) (W : Vec Ideal S256x256 .f32) (b : Vec Ideal S256 .f32)
    (hu : V c main_v48 = extractStridedSlice S128x256 ![0, 0] W slices_S256x256_S128x256_0_0)
    (hl : V c main_v49 = extractStridedSlice S128x256 ![128, 0] W slices_S256x256_S128x256_128_0)
    (hb : V c main_v50 = shapeCast S1x256 b shapeCasts_S256_S1x256) :
    (dat1 V c).arrAt 5 cfg1.N = combined V c W b :=
  (dat1 V c).arrAt_eq_of_cover 5 (combined V c W b) (fun t _ => combined_flushed V c t W b hu hl hb) cover5

end Cert.KernelIdeal.Second

end
-- ==== Proof.HostChain.lean ====
/-
  What the buffers hold at the two pipelines' entries, read back through the host operations between the segments.

  Before the first pipeline the only host operation recasts the first bias from a vector to a one-row matrix. Between
  the pipelines the host runs the graph convolution on the first pipeline's second result (the projected features),
  cuts the last weight into its rows 0 … 127 and 128 … 255, and recasts the last bias to a one-row matrix; it writes none of
  the argument arrays and does not touch the first pipeline's first result. The graph convolution's operations are,
  one for one and constant for constant, the reference's, so it is the same function of the projected features, the edge list
  and the bias; it is carried as that one function and never opened.
-/
import proofs.«147124_j61907658604753_1_alg».proof.Proof.Gen.KernelIdeal.Frame
import proofs.«147124_j61907658604753_1_alg».proof.Proof.RefLayers
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first pipeline -/

/-- The first pipeline finds the bias row as the first bias recast to one row. -/
theorem entry1_bias (c : Dev nD) :
    V1 m ρ c main_v0 = shapeCast S1x128 (m ((c : Thread nD τ).loc main_arg4)) shapeCasts_S128_S1x128 := by
  show StableHlo.after hostOps0 (W0 m ρ c) (Proc.devRef .tc main_v0) = _
  dsimp only [hostOps0]
  after_results <;> rfl

/-- The first pipeline finds the features as launched. -/
theorem entry1_feats (c : Dev nD) : V1 m ρ c main_arg0 = m ((c : Thread nD τ).loc main_arg0) := by
  show StableHlo.after hostOps0 (W0 m ρ c) (Proc.devRef .tc main_arg0) = _
  dsimp only [hostOps0]
  after_results <;> rfl

/-- The first pipeline finds the first weight as launched. -/
theorem entry1_w1 (c : Dev nD) : V1 m ρ c main_arg3 = m ((c : Thread nD τ).loc main_arg3) := by
  show StableHlo.after hostOps0 (W0 m ρ c) (Proc.devRef .tc main_arg3) = _
  dsimp only [hostOps0]
  after_results <;> rfl

/-- The first pipeline finds the second weight as launched. -/
theorem entry1_wg (c : Dev nD) : V1 m ρ c main_arg5 = m ((c : Thread nD τ).loc main_arg5) := by
  show StableHlo.after hostOps0 (W0 m ρ c) (Proc.devRef .tc main_arg5) = _
  dsimp only [hostOps0]
  after_results <;> rfl

/-! ## Between the pipelines -/

/-- An argument array that is none of the first pipeline's arrays is, at that pipeline's exit, as launched. -/
theorem exit1_of_ne (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem exit1_edges (c : Dev nD) : W2 m ρ c (Proc.devRef .tc main_arg1) = m ((c : Thread nD τ).loc main_arg1) :=
  exit1_of_ne m ρ c main_arg1 (by decide) (by dsimp only [hostOps0]; after_results <;> rfl)

theorem exit1_bg (c : Dev nD) : W2 m ρ c (Proc.devRef .tc main_arg6) = m ((c : Thread nD τ).loc main_arg6) :=
  exit1_of_ne m ρ c main_arg6 (by decide) (by dsimp only [hostOps0]; after_results <;> rfl)

theorem exit1_W (c : Dev nD) : W2 m ρ c (Proc.devRef .tc main_arg7) = m ((c : Thread nD τ).loc main_arg7) :=
  exit1_of_ne m ρ c main_arg7 (by decide) (by dsimp only [hostOps0]; after_results <;> rfl)

theorem exit1_b (c : Dev nD) : W2 m ρ c (Proc.devRef .tc main_arg8) = m ((c : Thread nD τ).loc main_arg8) :=
  exit1_of_ne m ρ c main_arg8 (by decide) (by dsimp only [hostOps0]; after_results <;> rfl)

/-- The host operations between the pipelines, from any contents X of the buffers: the first pipeline's first result is
    untouched. -/
theorem between_hidden (X : Valuation τ sig (Elt Ideal)) :
    StableHlo.after hostOps1_2 (StableHlo.after hostOps1_1 (StableHlo.after hostOps1 X)) (Proc.devRef .tc main_v1_0)
      = X (Proc.devRef .tc main_v1_0) := by
  dsimp only [hostOps1, hostOps1_1, hostOps1_2]
  after_results_simp <;> rfl

/-- The first stretch of host operations after the first pipeline, from any contents X: the source and target index
    vectors (the edge list's two rows with the self-loops appended), the degree test and the inverse square-root degrees
    are the reference's functions of the edge list; the projected features and the convolution's bias are untouched. -/
theorem stretch1 (X : Valuation τ sig (Elt Ideal)) :
    StableHlo.after hostOps1 X (Proc.devRef .tc main_v5) = Cert.ReferenceIdeal.ReadP.val_main_v8 (F := Ideal) (X (Proc.devRef .tc main_arg1))
    ∧ StableHlo.after hostOps1 X (Proc.devRef .tc main_v8) = Cert.ReferenceIdeal.ReadP.val_main_v11 (F := Ideal) (X (Proc.devRef .tc main_arg1))
    ∧ StableHlo.after hostOps1 X (Proc.devRef .tc main_v14) = Cert.ReferenceIdeal.ReadP.val_main_v17 (F := Ideal) (X (Proc.devRef .tc main_arg1))
    ∧ StableHlo.after hostOps1 X (Proc.devRef .tc main_v15) = Cert.ReferenceIdeal.ReadP.val_main_v18 (F := Ideal) (X (Proc.devRef .tc main_arg1))
    ∧ StableHlo.after hostOps1 X (Proc.devRef .tc main_cst_2) = Cert.ReferenceIdeal.ReadP.val_main_cst_2 (F := Ideal)
    ∧ StableHlo.after hostOps1 X (Proc.devRef .tc main_v1_1) = X (Proc.devRef .tc main_v1_1)
    ∧ StableHlo.after hostOps1 X (Proc.devRef .tc main_arg6) = X (Proc.devRef .tc main_arg6) := by
  dsimp only [hostOps1]
  refine ⟨?_, ?_, ?_, ?_, ?_, ?_, ?_⟩ <;> (after_results_simp <;> rfl)

/-- The selection of the inverse square-root degrees where the degree is positive, from contents Y in which the test, the
    candidates and the zero are the reference's: the reference's scaling vector; the index vectors, the projected features
    and the bias pass through. -/
theorem stretch2 (Y : Valuation τ sig (Elt Ideal)) (e : (⟨Cert.ReferenceIdeal.S2x800000, .i32⟩ : BufTy).Contents (Elt Ideal))
    (h14 : Y (Proc.devRef .tc main_v14) = Cert.ReferenceIdeal.ReadP.val_main_v17 (F := Ideal) e)
    (h15 : Y (Proc.devRef .tc main_v15) = Cert.ReferenceIdeal.ReadP.val_main_v18 (F := Ideal) e)
    (hc2 : Y (Proc.devRef .tc main_cst_2) = Cert.ReferenceIdeal.ReadP.val_main_cst_2 (F := Ideal)) :
    StableHlo.after hostOps1_1 Y (Proc.devRef .tc main_v16) = Cert.ReferenceIdeal.ReadP.val_main_v19 (F := Ideal) e
    ∧ StableHlo.after hostOps1_1 Y (Proc.devRef .tc main_v5) = Y (Proc.devRef .tc main_v5)
    ∧ StableHlo.after hostOps1_1 Y (Proc.devRef .tc main_v8) = Y (Proc.devRef .tc main_v8)
    ∧ StableHlo.after hostOps1_1 Y (Proc.devRef .tc main_v1_1) = Y (Proc.devRef .tc main_v1_1)
    ∧ StableHlo.after hostOps1_1 Y (Proc.devRef .tc main_arg6) = Y (Proc.devRef .tc main_arg6) := by
  dsimp only [hostOps1_1]
  refine ⟨?_, ?_, ?_, ?_, ?_⟩
  · after_results_simp
    show select (Y (Proc.devRef .tc main_v14)) (Y (Proc.devRef .tc main_v15))
      (broadcastInDim S50000 ![] bcast_S_S50000 (id (Y (Proc.devRef .tc main_cst_2)))) = _
    rw [h14, h15, hc2]
    rfl
  all_goals (after_results_simp <;> rfl)

/-- The last stretch, from contents Z in which the index vectors and the scaling vector are the reference's: the convolved
    features are the graph convolution of the projected features and the bias found in Z. -/
theorem stretch3 (Z : Valuation τ sig (Elt Ideal)) (e : (⟨Cert.ReferenceIdeal.S2x800000, .i32⟩ : BufTy).Contents (Elt Ideal))
    (h5 : Z (Proc.devRef .tc main_v5) = Cert.ReferenceIdeal.ReadP.val_main_v8 (F := Ideal) e)
    (h8 : Z (Proc.devRef .tc main_v8) = Cert.ReferenceIdeal.ReadP.val_main_v11 (F := Ideal) e)
    (h16 : Z (Proc.devRef .tc main_v16) = Cert.ReferenceIdeal.ReadP.val_main_v19 (F := Ideal) e) :
    StableHlo.after hostOps1_2 Z (Proc.devRef .tc main_v47)
      = Cert.ReferenceIdeal.Layers.conv (F := Ideal) (Z (Proc.devRef .tc main_v1_1)) e (Z (Proc.devRef .tc main_arg6)) := by
  dsimp only [hostOps1_2]
  after_results_simp
  rw [h5, h8, h16]
  rfl

/-- The host operations between the pipelines, from any contents X: the convolved features are the graph convolution of
    the projected features, the edge list and the bias found in X. -/
theorem between_convolved (X : Valuation τ sig (Elt Ideal)) :
    StableHlo.after hostOps1_2 (StableHlo.after hostOps1_1 (StableHlo.after hostOps1 X)) (Proc.devRef .tc main_v47)
      = Cert.ReferenceIdeal.Layers.conv (F := Ideal) (X (Proc.devRef .tc main_v1_1)) (X (Proc.devRef .tc main_arg1)) (X (Proc.devRef .tc main_arg6)) := by
  obtain ⟨a5, a8, a14, a15, ac2, ak, ab⟩ := stretch1 X
  obtain ⟨b16, b5, b8, bk, bb⟩ := stretch2 (StableHlo.after hostOps1 X) (X (Proc.devRef .tc main_arg1)) a14 a15 ac2
  refine (stretch3 (StableHlo.after hostOps1_1 (StableHlo.after hostOps1 X)) (X (Proc.devRef .tc main_arg1))
    (b5.trans a5) (b8.trans a8) b16).trans ?_
  rw [bk, bb, ak, ab]

/-- The upper half of the last weight: its rows 0 … 127. -/
theorem between_upper (X : Valuation τ sig (Elt Ideal)) :
    StableHlo.after hostOps1_2 (StableHlo.after hostOps1_1 (StableHlo.after hostOps1 X)) (Proc.devRef .tc main_v48)
      = extractStridedSlice S128x256 ![0, 0] (X (Proc.devRef .tc main_arg7)) slices_S256x256_S128x256_0_0 := by
  dsimp only [hostOps1, hostOps1_1, hostOps1_2]
  after_results_simp <;> rfl

/-- The lower half of the last weight: its rows 128 … 255. -/
theorem between_lower (X : Valuation τ sig (Elt Ideal)) :
    StableHlo.after hostOps1_2 (StableHlo.after hostOps1_1 (StableHlo.after hostOps1 X)) (Proc.devRef .tc main_v49)
      = extractStridedSlice S128x256 ![128, 0] (X (Proc.devRef .tc main_arg7)) slices_S256x256_S128x256_128_0 := by
  dsimp only [hostOps1, hostOps1_1, hostOps1_2]
  after_results_simp <;> rfl

/-- The last bias recast to one row. -/
theorem between_bias (X : Valuation τ sig (Elt Ideal)) :
    StableHlo.after hostOps1_2 (StableHlo.after hostOps1_1 (StableHlo.after hostOps1 X)) (Proc.devRef .tc main_v50)
      = shapeCast S1x256 (X (Proc.devRef .tc main_arg8)) shapeCasts_S256_S1x256 := by
  dsimp only [hostOps1, hostOps1_1, hostOps1_2]
  after_results_simp <;> rfl

end Cert.KernelIdeal.Chain

end
-- ==== Proof.KernelValue.lean ====
/-
  The idealized kernel program's result as one function of its arguments.

  The first pipeline leaves the hidden layer h = x·w₁ + b₁ and the projected features g = h·w_g of the launched arguments in
  its two result arrays; the host turns g into the convolved features q = conv(g, edges, b_g) and leaves h alone; the second
  pipeline leaves (h·W[0:128] + q·W[128:256]) + b, which is the last layer over [h | q]. Chained, the result buffer ends
  holding exactly the reference's composition of these layers, as extended reals, at every index.
-/
import proofs.«147124_j61907658604753_1_alg».proof.Proof.KernelRun
import proofs.«147124_j61907658604753_1_alg».proof.Proof.FirstPipeline
import proofs.«147124_j61907658604753_1_alg».proof.Proof.SecondPipeline
import proofs.«147124_j61907658604753_1_alg».proof.Proof.HostChain

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second pipeline finds the hidden layer of the launched arguments in its first feature array. -/
theorem entry2_hidden (c : Dev nD) :
    V5 m ρ c main_v1_0 = Cert.ReferenceIdeal.ReadP.val_main_v3 (F := Ideal) (m ((c.tc : Thread nD τ).loc main_arg0)) (m ((c.tc : Thread nD τ).loc main_arg3)) (m ((c.tc : Thread nD τ).loc main_arg4)) := by
  calc V5 m ρ c main_v1_0
      = V2 m ρ c main_v1_0 := Chain.between_hidden (W2 m ρ c)
    _ = (dat0 (V1 m ρ) c).arrAt 4 cfg0.N := (hF0 m ρ c 4).symm
    _ = First.hidden (V1 m ρ) c (m ((c.tc : Thread nD τ).loc main_arg4)) := First.hidden_final (V1 m ρ) c _ (Chain.entry1_bias m ρ c)
    _ = _ := by
      show Cert.ReferenceIdeal.ReadP.val_main_v3 (F := Ideal) (V1 m ρ c main_arg0) (V1 m ρ c main_arg3) _ = _
      rw [Chain.entry1_feats m ρ c, Chain.entry1_w1 m ρ c]

/-- The first pipeline leaves the projected features of the launched arguments in its second result array. -/
theorem exit1_projected (c : Dev nD) :
    W2 m ρ c (Proc.devRef .tc main_v1_1) = Cert.ReferenceIdeal.ReadP.val_main_v4 (F := Ideal) (m ((c.tc : Thread nD τ).loc main_arg0)) (m ((c.tc : Thread nD τ).loc main_arg3)) (m ((c.tc : Thread nD τ).loc main_arg4)) (m ((c.tc : Thread nD τ).loc main_arg5)) := by
  calc W2 m ρ c (Proc.devRef .tc main_v1_1)
      = (dat0 (V1 m ρ) c).arrAt 5 cfg0.N := W2_arr m ρ c 5
    _ = First.projected (V1 m ρ) c (m ((c.tc : Thread nD τ).loc main_arg4)) := First.projected_final (V1 m ρ) c _ (Chain.entry1_bias m ρ c)
    _ = _ := by
      show Cert.ReferenceIdeal.ReadP.val_main_v4 (F := Ideal) (V1 m ρ c main_arg0) (V1 m ρ c main_arg3) _ (V1 m ρ c main_arg5) = _
      rw [Chain.entry1_feats m ρ c, Chain.entry1_w1 m ρ c, Chain.entry1_wg m ρ c]

/-- The second pipeline finds the convolved features of the launched arguments in its second feature array. -/
theorem entry2_convolved (c : Dev nD) :
    V5 m ρ c main_v47 = Cert.ReferenceIdeal.Layers.conv (F := Ideal)
      (Cert.ReferenceIdeal.ReadP.val_main_v4 (F := Ideal) (m ((c.tc : Thread nD τ).loc main_arg0)) (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg6)) := by
  refine (Chain.between_convolved (W2 m ρ c)).trans ?_
  rw [exit1_projected m ρ c, Chain.exit1_edges m ρ c, Chain.exit1_bg m ρ c]

/-- The second pipeline finds the upper half of the launched last weight, -/
theorem entry2_upper (c : Dev nD) :
    V5 m ρ c main_v48 = extractStridedSlice S128x256 ![0, 0] (m ((c.tc : Thread nD τ).loc main_arg7)) slices_S256x256_S128x256_0_0 := by
  refine (Chain.between_upper (W2 m ρ c)).trans ?_
  rw [Chain.exit1_W m ρ c]

/-- its lower half, -/
theorem entry2_lower (c : Dev nD) :
    V5 m ρ c main_v49 = extractStridedSlice S128x256 ![128, 0] (m ((c.tc : Thread nD τ).loc main_arg7)) slices_S256x256_S128x256_128_0 := by
  refine (Chain.between_lower (W2 m ρ c)).trans ?_
  rw [Chain.exit1_W m ρ c]

/-- and the launched last bias recast to one row. -/
theorem entry2_bias (c : Dev nD) :
    V5 m ρ c main_v50 = shapeCast S1x256 (m ((c.tc : Thread nD τ).loc main_arg8)) shapeCasts_S256_S1x256 := by
  refine (Chain.between_bias (W2 m ρ c)).trans ?_
  rw [Chain.exit1_b m ρ c]

/-- The result buffer ends holding the reference's composition of layers of the launched arguments. -/
theorem result (c : Dev nD) :
    V6 m ρ c main_v51 = Cert.ReferenceIdeal.ReadP.val_main_v55 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.ReferenceIdeal.Layers.result_eq]
  calc V6 m ρ c main_v51
      = (dat1 (V5 m ρ) c).arrAt 5 cfg1.N := (hF1 m ρ c 5).symm
    _ = Second.combined (V5 m ρ) c (m ((c.tc : Thread nD τ).loc main_arg7)) (m ((c.tc : Thread nD τ).loc main_arg8)) :=
        Second.combined_final (V5 m ρ) c _ _ (entry2_upper m ρ c) (entry2_lower m ρ c) (entry2_bias m ρ c)
    _ = _ := by
      show Cert.ReferenceIdeal.Layers.combine (F := Ideal) (V5 m ρ c main_v1_0) (V5 m ρ c main_v47) _ _ = _
      rw [entry2_hidden m ρ c, entry2_convolved m ρ c]

/-- The run: every weakly fair execution terminates without a fault, the result buffer at the reference's function of the
    launched arguments, the arguments unchanged. -/
theorem run : θ_run defs (onTc (τ := τ) (main (F := Ideal))) ⟨m, fun _ => 0, ρ⟩ (fun r => ∀ c : Dev nD,
      r.2.mem ((c.tc : Thread nD τ).loc main_v51)
        = Cert.ReferenceIdeal.ReadP.val_main_v55 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (run_named m ρ)

end Cert.KernelIdeal.Whole

end
-- ==== Proof.lean ====
/-
  The proof of `Cert.Claim`: the three frames, the idealization's (empty) ledger, and the equality of results on the
  extended reals.

  The mathematics. Kernel and reference compute, for feature rows x, weights w₁, w_g, W, biases b₁, b_g, b and an edge list,
      h = x·w₁ + b₁,   g = h·w_g,   q = conv(g, edges, b_g),   o = [h | q]·W + b.
  The reference does so with three whole matrix products on the host. The kernel computes h and g in a first tiled pipeline
  (25 tiles of 2000 rows, operands narrowed to a shorter float format), runs the same host operations for conv, and computes
  o in a second tiled pipeline as h·W[0:128] + q·W[128:256] + b, never joining h and q. On the extended reals narrowing is the
  identity, a tile's rows of a product are the whole product's rows, and a sum over 256 positions is the sum of its two halves
  (addition there is commutative and associative, so no finiteness is needed): the two results agree at every index. The
  convolution is the same function in both programs and is never opened. The edge list and the batch vector are returned
  as launched by both.
-/
import proofs.«147124_j61907658604753_1_alg».proof.Defs
import proofs.«147124_j61907658604753_1_alg».proof.Proof.Gen.Kernel
import proofs.«147124_j61907658604753_1_alg».proof.Proof.Gen.Kernel.Skeleton
import proofs.«147124_j61907658604753_1_alg».proof.Proof.Gen.Kernel.Launch
import proofs.«147124_j61907658604753_1_alg».proof.Proof.Gen.Kernel.Points
import proofs.«147124_j61907658604753_1_alg».proof.Proof.Gen.Kernel.Frame
import proofs.«147124_j61907658604753_1_alg».proof.Proof.Gen.KernelIdeal
import proofs.«147124_j61907658604753_1_alg».proof.Proof.Gen.KernelIdeal.Skeleton
import proofs.«147124_j61907658604753_1_alg».proof.Proof.Gen.KernelIdeal.Launch
import proofs.«147124_j61907658604753_1_alg».proof.Proof.Gen.KernelIdeal.Points
import proofs.«147124_j61907658604753_1_alg».proof.Proof.Gen.KernelIdeal.Frame
import proofs.«147124_j61907658604753_1_alg».proof.Proof.Gen.ReferenceIdeal
import proofs.«147124_j61907658604753_1_alg».proof.Proof.Gen.Pre_finite_inputs
import proofs.«147124_j61907658604753_1_alg».proof.Proof.RefRun
import proofs.«147124_j61907658604753_1_alg».proof.Proof.RefRead
import proofs.«147124_j61907658604753_1_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel :=
  fun m ρ _ => Cert.Kernel.Gen.frame m ρ

/-- The idealized kernel program runs and keeps its arguments. -/
theorem frame_kernelIdeal : Cert.frame_KernelIdeal :=
  fun m ρ _ => Cert.KernelIdeal.Gen.frame m ρ

/-- The idealized reference runs and keeps its arguments: its run with the result dropped. -/
theorem frame_referenceIdeal : Cert.frame_ReferenceIdeal :=
  fun m ρ _ => (θ_run Cert.ReferenceIdeal.defs _ _).mono (fun _ h c => (h c).2.2.2) (Cert.ReferenceIdeal.ValueP.run (F := Ideal) m ρ)

/-- The idealization rewrote nothing, so there is nothing to preserve. -/
theorem preserves : Cert.preserves_Kernel_KernelIdeal := trivial

/-- From memories agreeing on the arguments both idealized programs end with the reference's composition of layers of
    those arguments in the result, and with the edge list and the batch vector as launched. -/
theorem algebraic : Cert.algebraic_KernelIdeal_ReferenceIdeal := by
  intro m ρ m' ρ' _ hagree
  refine ⟨fun c => Cert.ReferenceIdeal.ReadP.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg2), ?_, ?_⟩
  · exact (θ_run Cert.KernelIdeal.defs _ _).mono (fun r h c => ⟨(h c).1, (h c).2.2.1, (h c).2.2.2.1, (h c).2⟩)
      (Cert.KernelIdeal.Whole.run m ρ)
  · refine (θ_run Cert.ReferenceIdeal.defs _ _).mono (fun r h c => ?_) (Cert.ReferenceIdeal.ValueP.run (F := Ideal) m' ρ')
    obtain ⟨a0, a1, a2, a3, a4, a5, a6, a7, a8⟩ := hagree c
    refine ⟨(h c).1.trans ?_, (h c).2.1.trans a1, (h c).2.2.1.trans a2, (h c).2.2.2⟩
    rw [Cert.ReferenceIdeal.ReadP.val_main_v55_eq m' c, a0, a1, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
